-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1x2048 : Shape := ⟨2, ![1, 2048]⟩
abbrev S2048x1024 : Shape := ⟨2, ![2048, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S1024x2048 .f32) (main_arg2 : FVec F S1x2048 .f32) (main_arg3 : FVec F S2048x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Kernel.lean ====
abbrev S8192x1024 : Shape := ⟨2, ![8192, 1024]⟩
abbrev S1024x2048 : Shape := ⟨2, ![1024, 2048]⟩
abbrev S1x2048 : Shape := ⟨2, ![1, 2048]⟩
abbrev S2048x1024 : Shape := ⟨2, ![2048, 1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S2048x1024, .f32⟩
  | .hbm, ⟨4, _⟩ => ⟨S1x1024, .f32⟩
  | .hbm, ⟨5, _⟩ => ⟨S8192x2048, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S1024x2048, .bf16⟩
  | .local _ .vmem, ⟨11, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S512x1024_S512x1024_0_0 : ∀ a, (![0, 0] : Fin 2 → Nat) a + S512x1024.size a ≤ S512x1024.size a
  h_S512x1024 : 0 < S512x1024.numel
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1x2048 : Shape := ⟨2, ![1, 2048]⟩
abbrev S2048x1024 : Shape := ⟨2, ![2048, 1024]⟩
abbrev S1x1024 : Shape := ⟨2, ![1, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S2048x1024, .f32⟩
  | .hbm, ⟨4, _⟩ => ⟨S1x1024, .f32⟩
  | .hbm, ⟨5, _⟩ => ⟨S8192x2048, .f32⟩
  | .hbm, ⟨6, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .f32 = 32 ∨ (Rect.block (s := S2048x1024) S2048x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.KerPieces.lean ====
/-
  What one grid point of the fused kernel leaves behind, as values.

  The kernel keeps two scratch buffers across grid points: at the first point it stores the two weight matrices
  (narrowed to the 16-bit format) into them, and every point then reads the weights from the scratch. Each buffer is
  written by one store that covers it, so what a point leaves in a buffer is that store's payload, and a load that
  follows a covering store reads the stored payload back. Hence, for every float instance:

    first point   hidden block  = relu-layer payload of (x block, narrowed W1, b1)
                  output block  = second-layer payload of (that hidden block, narrowed W2, b2)
                  scratch 0, 1  = narrowed W1, narrowed W2
    later points  the same two payloads over whatever the scratch held before the point; the scratch is untouched.
-/
import proofs.«175138_g2000000166932902_pallasbulk_308_12_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point: scratch 0 ends holding the narrowed first weight matrix. -/
theorem first_scratch0 (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : cond0_0 i) (x0 : Vec F S512x1024 .f32) (x1 : Vec F S1024x2048 .f32) (x2 : Vec F S1x2048 .f32) (x3 : Vec F S2048x1024 .f32) (x4 : Vec F S1x1024 .f32) :
    sout0_A_0 c i a1 h1 a2 h2 a3 h3 a4 h4 a5 h5 a6 h6 a7 h7 a8 h8 a9 h9 hc x0 x1 x2 x3 x4 = k0_pay1 x1 := by
  unfold sout0_A_0
  rw [View.read_writes_eq_canon _ _ _ (scover0_A_0 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

/-- First point: scratch 1 ends holding the narrowed second weight matrix. -/
theorem first_scratch1 (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : cond0_0 i) (x0 : Vec F S512x1024 .f32) (x1 : Vec F S1024x2048 .f32) (x2 : Vec F S1x2048 .f32) (x3 : Vec F S2048x1024 .f32) (x4 : Vec F S1x1024 .f32) :
    sout0_A_1 c i a1 h1 a2 h2 a3 h3 a4 h4 a5 h5 a6 h6 a7 h7 a8 h8 a9 h9 hc x0 x1 x2 x3 x4 = k0_pay2 x3 := by
  unfold sout0_A_1
  rw [View.read_writes_eq_canon _ _ _ (scover0_A_1 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

/-- First point: the hidden block is the first layer over the weights just stored. -/
theorem first_hidden (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : cond0_0 i) (x0 : Vec F S512x1024 .f32) (x1 : Vec F S1024x2048 .f32) (x2 : Vec F S1x2048 .f32) (x3 : Vec F S2048x1024 .f32) (x4 : Vec F S1x1024 .f32) :
    out0_A_5 c i a1 h1 a2 h2 a3 h3 a4 h4 a5 h5 a6 h6 a7 h7 a8 h8 a9 h9 hc x0 x1 x2 x3 x4 = k0_pay3 x0 (k0_pay1 x1) x2 := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

/-- First point: the output block is the second layer over the hidden block just stored. -/
theorem first_output (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : cond0_0 i) (x0 : Vec F S512x1024 .f32) (x1 : Vec F S1024x2048 .f32) (x2 : Vec F S1x2048 .f32) (x3 : Vec F S2048x1024 .f32) (x4 : Vec F S1x1024 .f32) :
    out0_A_6 c i a1 h1 a2 h2 a3 h3 a4 h4 a5 h5 a6 h6 a7 h7 a8 h8 a9 h9 hc x0 x1 x2 x3 x4 = k0_pay4 (k0_pay3 x0 (k0_pay1 x1) x2) (k0_pay2 x3) x4 := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

/-- A later point: the hidden block is the first layer over the weights the scratch holds. -/
theorem later_hidden (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : ¬cond0_0 i) (x0 : Vec F S512x1024 .f32) (x1 : Vec F S1024x2048 .f32) (x2 : Vec F S1x2048 .f32) (x3 : Vec F S2048x1024 .f32) (x4 : Vec F S1x1024 .f32) (xs0 : Vec F S1024x2048 .bf16) (xs1 : Vec F S2048x1024 .bf16) :
    out0_B_5 c i a1 h1 a2 h2 a3 h3 a4 h4 a5 h5 a6 h6 a7 h7 a8 h8 a9 h9 hc x0 x1 x2 x3 x4 xs0 xs1 = k0_pay3 x0 xs0 x2 := by
  unfold out0_B_5
  rw [View.read_writes_eq_canon _ _ _ (cover0_B_5 c i a1 h1 a2 h2 a3 h3 a4 h4 a5 h5 a6 h6 a7 h7 a8 h8 a9 h9 hc x0 x1 x2 x3 x4 xs0 xs1)]
  unfold kernelRun0_B
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

/-- A later point: the output block is the second layer over the hidden block just stored. -/
theorem later_output (c : Dev nD) (i : grid0.Coords) (a1 : Memref sig .tc .vmem S512x1024 .f32) (h1 : a1.IsWhole) (a2 : Memref sig .tc .vmem S1024x2048 .f32) (h2 : a2.IsWhole) (a3 : Memref sig .tc .vmem S1x2048 .f32) (h3 : a3.IsWhole) (a4 : Memref sig .tc .vmem S2048x1024 .f32) (h4 : a4.IsWhole) (a5 : Memref sig .tc .vmem S1x1024 .f32) (h5 : a5.IsWhole) (a6 : Memref sig .tc .vmem S512x2048 .f32) (h6 : a6.IsWhole) (a7 : Memref sig .tc .vmem S512x1024 .f32) (h7 : a7.IsWhole) (a8 : Memref sig .tc .vmem S1024x2048 .bf16) (h8 : a8.IsWhole) (a9 : Memref sig .tc .vmem S2048x1024 .bf16) (h9 : a9.IsWhole) (hc : ¬cond0_0 i) (x0 : Vec F S512x1024 .f32) (x1 : Vec F S1024x2048 .f32) (x2 : Vec F S1x2048 .f32) (x3 : Vec F S2048x1024 .f32) (x4 : Vec F S1x1024 .f32) (xs0 : Vec F S1024x2048 .bf16) (xs1 : Vec F S2048x1024 .bf16) :
    out0_B_6 c i a1 h1 a2 h2 a3 h3 a4 h4 a5 h5 a6 h6 a7 h7 a8 h8 a9 h9 hc x0 x1 x2 x3 x4 xs0 xs1 = k0_pay4 (k0_pay3 x0 xs0 x2) xs1 x4 := by
  unfold out0_B_6
  rw [View.read_writes_eq_canon _ _ _ (cover0_B_6 c i a1 h1 a2 h2 a3 h3 a4 h4 a5 h5 a6 h6 a7 h7 a8 h8 a9 h9 hc x0 x1 x2 x3 x4 xs0 xs1)]
  unfold kernelRun0_B
  dsimp only
  sl_unfold_words
  rw [View.canon_unit_zero hz]
  simp only [View.readAt_eq_ld, h1.read_unread, h2.read_unread, h3.read_unread, h4.read_unread, h5.read_unread, h8.read_unread, h9.read_unread, View.ld_unit_zero (S := S512x1024) hz, View.ld_unit_zero (S := S1024x2048) hz, View.ld_unit_zero (S := S1x2048) hz, View.ld_unit_zero (S := S2048x1024) hz, View.ld_unit_zero (S := S1x1024) hz, View.ld_unit_zero (S := S512x2048) hz, View.readCov_unit_zero (S := S1024x2048) _ hz, View.readCov_unit_zero (S := S2048x1024) _ hz, View.readCov_unit_zero (S := S512x2048) _ hz]

end Cert.KernelIdeal.Pieces

end
-- ==== Proof.KerBlocks.lean ====
/-
  Where the blocks of the fused kernel sit in their arrays.

  The batch axis is cut into 16 blocks of 512 rows, one per grid point: at point `t` the input window of `x` and the
  two output windows hold rows `512 t … 512 t + 511` of their arrays, all columns; the weight and bias windows hold
  their whole arrays at every point. So an element at row `p` of a row block sits at row `512 t + p` of the array,
  a weight or bias block read at an index is the array read at that index, and every row `r` of an output array lies
  in the block of point `r / 512`.
-/
import proofs.«175138_g2000000166932902_pallasbulk_308_12_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed block-index maps, decided over the 16 grid points: the row-blocked windows move along the rows with
    the point, every other block index is zero. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `p` of the block of `x` at point `t` is row `512 t + p` of `x`. -/
theorem x_rows (c : Dev nD) (t : Fin cfg0.N) (p : Fin 512) (k : Fin 1024) (r : Fin 8192) (hr : r.val = 512 * t.val + p.val) :
    (iblk m c 0 t : Vec F S512x1024 .f32) (ix2 p k) = m ((c : Thread nD τ).loc main_arg0) (ix2 r k) := by
  obtain ⟨⟨e0, e1⟩, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- The block of the first weight matrix at any point is the whole array. -/
theorem whole1 (c : Dev nD) (t : Fin cfg0.N) :
    (iblk m c 1 t : Vec F S1024x2048 .f32) = m ((c : Thread nD τ).loc main_arg1) := by
  obtain ⟨-, ⟨e0, e1⟩, -⟩ := idx_facts t
  funext j
  unfold iblk
  rw [View.read_apply]
  show V m c main_arg1 _ = m (c.tc.loc main_arg1) _
  unfold V
  congr 1
  funext a
  apply Fin.ext
  match a with
  | ⟨0, _⟩ => show win0_1.index t (0 : Fin 2) * 1024 + 1 * (j 0).val = (j 0).val; omega
  | ⟨1, _⟩ => show win0_1.index t (1 : Fin 2) * 2048 + 1 * (j 1).val = (j 1).val; omega

/-- The block of the first bias row at any point is the whole array. -/
theorem whole2 (c : Dev nD) (t : Fin cfg0.N) :
    (iblk m c 2 t : Vec F S1x2048 .f32) = m ((c : Thread nD τ).loc main_arg2) := by
  obtain ⟨-, -, ⟨e0, e1⟩, -⟩ := idx_facts t
  funext j
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega

/-- The block of the second weight matrix at any point is the whole array. -/
theorem whole3 (c : Dev nD) (t : Fin cfg0.N) :
    (iblk m c 3 t : Vec F S2048x1024 .f32) = m ((c : Thread nD τ).loc main_arg3) := by
  obtain ⟨-, -, -, ⟨e0, e1⟩, -⟩ := idx_facts t
  funext j
  unfold iblk
  rw [View.read_apply]
  show V m c main_arg3 _ = m (c.tc.loc main_arg3) _
  unfold V
  congr 1
  funext a
  apply Fin.ext
  match a with
  | ⟨0, _⟩ => show win0_3.index t (0 : Fin 2) * 2048 + 1 * (j 0).val = (j 0).val; omega
  | ⟨1, _⟩ => show win0_3.index t (1 : Fin 2) * 1024 + 1 * (j 1).val = (j 1).val; omega

/-- The block of the second bias row at any point is the whole array. -/
theorem whole4 (c : Dev nD) (t : Fin cfg0.N) :
    (iblk m c 4 t : Vec F S1x1024 .f32) = m ((c : Thread nD τ).loc main_arg4) := by
  obtain ⟨-, -, -, -, ⟨e0, e1⟩, -⟩ := idx_facts t
  funext j
  unfold iblk
  rw [View.read_apply]
  show V m c main_arg4 _ = m (c.tc.loc main_arg4) _
  unfold V
  congr 1
  funext a
  apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- An element at row `p` of the hidden block of point `t` sits at row `512 t + p` of the hidden array. -/
theorem emb5 (t : Fin cfg0.N) (p : Fin 512) (q : Fin 2048) (r : Fin 8192) (hr : r.val = 512 * t.val + p.val) :
    ((cfg0.win 5).blk t).view.emb (ix2 p q) = (ix2 r q : S8192x2048.Idx) := by
  obtain ⟨-, -, -, -, -, ⟨e0, e1⟩, -⟩ := idx_facts t
  funext a
  apply Fin.ext
  match a with
  | ⟨0, _⟩ => show win0_5.index t (0 : Fin 2) * 512 + 1 * p.val = r.val; omega
  | ⟨1, _⟩ => show win0_5.index t (1 : Fin 2) * 2048 + 1 * q.val = q.val; omega

/-- An index of the hidden array is in point `t`'s block iff each coordinate is in the block's range on its axis. -/
theorem mem_blk5 (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v0_0).slice (win0_5.rect t)).set ↔ _
  rw [View.set_slice_whole, Rect.mem_set_unit]
  exact Iff.rfl

/-- Every index of the hidden array is in the block of the point its row falls in, and that point writes back. -/
theorem cover5 (i : S8192x2048.Idx) :
    ∃ t : Fin cfg0.N, (cfg0.win 5).flush t = true ∧ i ∈ ((cfg0.win 5).blk t).view.set := by
  have hN : cfg0.N = 16 := N_0
  have hi0 : (i 0).val < 8192 := (i 0).isLt
  have hi1 : (i 1).val < 2048 := (i 1).isLt
  obtain ⟨t, ht⟩ : ∃ t : Fin cfg0.N, t.val = (i 0).val / 512 := ⟨⟨(i 0).val / 512, by omega⟩, rfl⟩
  obtain ⟨-, -, -, -, -, ⟨e0, e1⟩, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- An element at row `p` of the output block of point `t` sits at row `512 t + p` of the output array. -/
theorem emb6 (t : Fin cfg0.N) (p : Fin 512) (q : Fin 1024) (r : Fin 8192) (hr : r.val = 512 * t.val + p.val) :
    ((cfg0.win 6).blk t).view.emb (ix2 p q) = (ix2 r q : S8192x1024.Idx) := by
  obtain ⟨-, -, -, -, -, -, ⟨e0, e1⟩⟩ := idx_facts t
  funext a
  apply Fin.ext
  match a with
  | ⟨0, _⟩ => show win0_6.index t (0 : Fin 2) * 512 + 1 * p.val = r.val; omega
  | ⟨1, _⟩ => show win0_6.index t (1 : Fin 2) * 1024 + 1 * q.val = q.val; omega

/-- An index of the output array is in point `t`'s block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_1).slice (win0_6.rect t)).set ↔ _
  rw [View.set_slice_whole, Rect.mem_set_unit]
  exact Iff.rfl

/-- Every index of the output array is in the block of the point its row falls in, and that point writes back. -/
theorem cover6 (i : S8192x1024.Idx) :
    ∃ t : Fin cfg0.N, (cfg0.win 6).flush t = true ∧ i ∈ ((cfg0.win 6).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, ⟨e0, e1⟩⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

end Cert.KernelIdeal.Blocks

end
-- ==== Proof.LibPlainMatmul.lean ====
/-
  A plain matrix product read at an index, at the ideal values.

  For the dimension numbers of an `M x K` by `K x N` product (contract the left operand's axis 1 with the right
  operand's axis 0, no batch axis), a product accumulated into the zero splat is, at row `r` and column `q`, the
  sum over `k : Fin K` of `a (r, k) * b (k, q)` on the extended reals: no rounding, no chunk order, and the
  contraction index is just its one coordinate.
-/
import Idealize.ShloMosaic.Lib.ValueIdx
import Idealize.ShloMosaic.PureOps.Ideal.Laws

namespace PlainMatmul

open Idealize.ShloMosaic Idealize.ShloMosaic.ValueIdx

variable {M K N : ℕ}

/-- The contraction index of a plain product is one coordinate below `K`. -/
noncomputable def kEquiv (M K N : ℕ) : (DotDims.plain M K N).contr.Idx ≃ Fin K :=
  contrEquiv1 (DotDims.plain M K N) K rfl rfl

/-- The left operand is read at (row, contraction coordinate). -/
theorem lhsIdx_plain (r : Fin M) (q : Fin N) (k : Fin K) :
    (DotDims.plain M K N).lhsIdx (ix2 r q) ((kEquiv M K N).symm k) = ix2 r k := by
  funext ax
  apply Fin.ext
  match ax with
  | ⟨0, _⟩ => rfl
  | ⟨1, _⟩ =>
    exact ((DotDims.plain M K N).lhsIdx_val_of_single (cl := 1) rfl (ix2 r q) ((kEquiv M K N).symm k)).trans
      (contrEquiv1_symm_val (DotDims.plain M K N) K rfl rfl k)

/-- The right operand is read at (contraction coordinate, column). -/
theorem rhsIdx_plain (r : Fin M) (q : Fin N) (k : Fin K) :
    (DotDims.plain M K N).rhsIdx (ix2 r q) ((kEquiv M K N).symm k) = ix2 k q := by
  funext ax
  apply Fin.ext
  match ax with
  | ⟨0, _⟩ =>
    exact ((DotDims.plain M K N).rhsIdx_val_of_single (cr := 0) rfl (ix2 r q) ((kEquiv M K N).symm k)).trans
      (contrEquiv1_symm_val (DotDims.plain M K N) K rfl rfl k)
  | ⟨1, _⟩ => rfl

/-- A plain product into the zero splat, at an index. -/
theorem matmul_zero_apply {φ₁ φ₂ : FTy} (prec : Option ContractPrecision)
    (a : FVec Ideal ⟨2, ![M, K]⟩ φ₁) (b : FVec Ideal ⟨2, ![K, N]⟩ φ₂) (r : Fin M) (q : Fin N) :
    FloatOps.matmul (DotDims.plain M K N) prec a b (constant ⟨2, ![M, N]⟩ .f32 0x00000000#32) (ix2 r q)
      = ∑ k : Fin K, a (ix2 r k) * b (ix2 k q) := by
  rw [Ideal.matmul_constant_zero_apply]
  rw [← Equiv.sum_comp (kEquiv M K N).symm]
  refine Finset.sum_congr rfl fun k _ => ?_
  rw [lhsIdx_plain, rhsIdx_plain]

end PlainMatmul
-- ==== Proof.LibDenseLayers.lean ====
/-
  Two dense layers read at an index, at the ideal values.

  A dense layer takes a block of rows `a` (`M x K`), a weight matrix `w` (`K x N`) and one bias row `b` (`1 x N`),
  multiplies into a zero accumulator and adds the bias row to every row of the product. On the extended reals its
  entry at row `r` and column `q` is `(∑ k, a (r, k) * w (k, q)) + b (0, q)`, whatever float formats the operands were
  narrowed to on the way in (a change of format is the identity there). Followed by a maximum with the zero splat it
  is the rectified layer `max (…) 0`.

  Stated for any record `d` of dimension numbers that IS the plain product's (a program prints its own record, with
  its own proof of well-formedness) and any witness that the bias row broadcasts.
-/
import Idealize.ShloMosaic.Lib.ValueIdx
import Idealize.ShloMosaic.Lib.ValueLayout
import Idealize.ShloMosaic.Lib.Pipeline.Value
import Idealize.ShloMosaic.PureOps.Ideal.Laws
import proofs.«175138_g2000000166932902_pallasbulk_308_12_alg».proof.Proof.LibPlainMatmul

noncomputable section

namespace DenseLayers

open Idealize.ShloMosaic Idealize.ShloMosaic.ValueIdx

variable {M K N : ℕ}

/-- The affine layer's entry: a row of `a` against a column of `w`, plus the bias of that column. -/
def affine (a : (⟨2, ![M, K]⟩ : Shape).Idx → EReal) (w : (⟨2, ![K, N]⟩ : Shape).Idx → EReal)
    (b : (⟨2, ![1, N]⟩ : Shape).Idx → EReal) (r : Fin M) (q : Fin N) : EReal :=
  (∑ k : Fin K, a (ix2 r k) * w (ix2 k q)) + b (ix2 (0 : Fin 1) q)

/-- The rectified layer's entry: the affine entry, or the zero word's value when that is larger. -/
def rectified (a : (⟨2, ![M, K]⟩ : Shape).Idx → EReal) (w : (⟨2, ![K, N]⟩ : Shape).Idx → EReal)
    (b : (⟨2, ![1, N]⟩ : Shape).Idx → EReal) (r : Fin M) (q : Fin N) : EReal :=
  max (affine a w b r q) (Ideal.ofBits .f32 0x00000000#32)

/-- A product into the zero splat plus the broadcast bias row, at an index. -/
theorem affine_apply {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (q : Fin N) :
    addf (FloatOps.matmul d none a w (constant ⟨2, ![M, N]⟩ .f32 0x00000000#32)) (broadcastTo ⟨2, ![M, N]⟩ b hb) (ix2 r q)
      = affine a w b r q := by
  subst hd
  rw [addf_apply, PlainMatmul.matmul_zero_apply, broadcastTo_1b_ab_apply]
  rfl

/-- The same followed by the maximum with the zero splat. -/
theorem rectified_apply {φ₁ φ₂ : FTy} (d : DotDims ⟨2, ![M, K]⟩ ⟨2, ![K, N]⟩ ⟨2, ![M, N]⟩) (hd : d = DotDims.plain M K N)
    (a : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (q : Fin N) :
    maximumf (addf (FloatOps.matmul d none a w (constant ⟨2, ![M, N]⟩ .f32 0x00000000#32)) (broadcastTo ⟨2, ![M, N]⟩ b hb))
        (broadcast ⟨2, ![M, N]⟩ (Scalar.ofBits (F := Ideal) .f32 0x00000000#32)) (ix2 r q)
      = rectified a w b r q := by
  rw [maximumf_apply, affine_apply d hd a w b hb r q, broadcast_apply]
  rfl

/-- The affine entry depends on the left operand through one row only: a block of rows `a` (`M x K`) read at its
    row `r` and an array `a'` (`M' x K`) read at its row `r'` give the same entry when those two rows agree. -/
theorem affine_row {M' : ℕ} (a : (⟨2, ![M, K]⟩ : Shape).Idx → EReal) (a' : (⟨2, ![M', K]⟩ : Shape).Idx → EReal)
    (w : (⟨2, ![K, N]⟩ : Shape).Idx → EReal) (b : (⟨2, ![1, N]⟩ : Shape).Idx → EReal) (r : Fin M) (r' : Fin M') (q : Fin N)
    (h : ∀ k : Fin K, a (ix2 r k) = a' (ix2 r' k)) :
    affine a w b r q = affine a' w b r' q := by
  unfold affine
  exact congrArg (· + b (ix2 (0 : Fin 1) q)) (Finset.sum_congr rfl fun k _ => by rw [h k])

/-- The same for the rectified entry. -/
theorem rectified_row {M' : ℕ} (a : (⟨2, ![M, K]⟩ : Shape).Idx → EReal) (a' : (⟨2, ![M', K]⟩ : Shape).Idx → EReal)
    (w : (⟨2, ![K, N]⟩ : Shape).Idx → EReal) (b : (⟨2, ![1, N]⟩ : Shape).Idx → EReal) (r : Fin M) (r' : Fin M') (q : Fin N)
    (h : ∀ k : Fin K, a (ix2 r k) = a' (ix2 r' k)) :
    rectified a w b r q = rectified a' w b r' q := by
  unfold rectified
  rw [affine_row a a' w b r r' q h]

/-! ## The two-layer network on whole arrays -/

variable {H : ℕ}

/-- The hidden activations of all rows: the rectified layer of `x` (`M x K`) with `w1` (`K x H`) and `b1`. -/
def hidden (x : (⟨2, ![M, K]⟩ : Shape).Idx → EReal) (w1 : (⟨2, ![K, H]⟩ : Shape).Idx → EReal)
    (b1 : (⟨2, ![1, H]⟩ : Shape).Idx → EReal) : (⟨2, ![M, H]⟩ : Shape).Idx → EReal :=
  fun i => rectified x w1 b1 (i 0) (i 1)

/-- The network's output for all rows: the affine layer of the hidden activations with `w2` (`H x N`) and `b2`. -/
def output (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) : (⟨2, ![M, N]⟩ : Shape).Idx → EReal :=
  fun i => affine (hidden x w1 b1) w2 b2 (i 0) (i 1)

theorem hidden_apply (x : (⟨2, ![M, K]⟩ : Shape).Idx → EReal) (w1 : (⟨2, ![K, H]⟩ : Shape).Idx → EReal)
    (b1 : (⟨2, ![1, H]⟩ : Shape).Idx → EReal) (r : Fin M) (j : Fin H) :
    hidden x w1 b1 (ix2 r j) = rectified x w1 b1 r j := rfl

theorem output_apply (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) (r : Fin M) (q : Fin N) :
    output x w1 b1 w2 b2 (ix2 r q) = affine (hidden x w1 b1) w2 b2 r q := rfl

end DenseLayers

end
-- ==== Proof.KerValue.lean ====
/-
  What the fused kernel leaves in its two result arrays, at the ideal values.

  The kernel runs the two dense layers on 16 row blocks of 512 rows, reading both weight matrices from two scratch
  buffers it fills once: at the first grid point it stores each weight matrix, narrowed to the 16-bit format, into
  its scratch buffer, and no later point stores into them. So after EVERY point the scratch buffers hold the narrowed
  weight matrices (induction on the point: the first point stores them, a later point keeps what the point before
  left), and at every point the hidden block is the rectified layer of the block of `x`, the narrowed first weight
  matrix and the first bias row, and the output block the affine layer of that hidden block (stored, read back and
  narrowed), the narrowed second weight matrix and the second bias row.

  On the extended reals a change of float format is the identity, so the narrowed matrices are the matrices and the
  narrowed hidden block is the hidden block. A block's row `p` at point `t` is row `512 t + p` of the array, and an
  entry of either layer depends on its left operand through one row only; the 16 blocks tile each result array.
  Hence after the run the first result array is `DenseLayers.hidden` and the second `DenseLayers.output` of the five
  argument arrays.
-/
import proofs.«175138_g2000000166932902_pallasbulk_308_12_alg».proof.Proof.Gen.KernelIdeal.Value
import proofs.«175138_g2000000166932902_pallasbulk_308_12_alg».proof.Proof.KerPieces
import proofs.«175138_g2000000166932902_pallasbulk_308_12_alg».proof.Proof.KerBlocks
import proofs.«175138_g2000000166932902_pallasbulk_308_12_alg».proof.Proof.LibDenseLayers

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-! ## The scratch buffers hold the narrowed weights after every point -/

/-- The first point stores the narrowed weight matrices into the scratch buffers. -/
theorem scratch_first (c : Dev nD) (t : Fin cfg0.N) (h0 : t.val % 16 = 0) :
    (outsAt0 m c t.val t.isLt).2.2.1 = k0_pay1 (F := Ideal) (m ((c : Thread nD τ).loc main_arg1))
    ∧ (outsAt0 m c t.val t.isLt).2.2.2 = k0_pay2 (F := Ideal) (m ((c : Thread nD τ).loc main_arg3)) := by
  rw [outsAt0_A m c t h0]
  dsimp only
  refine ⟨?_, ?_⟩
  · exact (Pieces.first_scratch0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)).trans
      (congrArg (k0_pay1 (F := Ideal)) (Blocks.whole1 m c t))
  · exact (Pieces.first_scratch1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)).trans
      (congrArg (k0_pay2 (F := Ideal)) (Blocks.whole3 m c t))

/-- A later point leaves in the scratch buffers what the point before left. -/
theorem scratch_later (c : Dev nD) (t : Fin cfg0.N) (h0 : ¬t.val % 16 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0]
  dsimp only
  unfold sout0_B_0 sout0_B_1
  exact ⟨rfl, rfl⟩

/-- After every point the two scratch buffers hold the narrowed weight matrices. -/
theorem scratch_eq (c : Dev nD) : ∀ (n : ℕ) (h : n < cfg0.N),
    (outsAt0 m c n h).2.2.1 = k0_pay1 (F := Ideal) (m ((c : Thread nD τ).loc main_arg1)) ∧ (outsAt0 m c n h).2.2.2 = k0_pay2 (F := Ideal) (m ((c : Thread nD τ).loc main_arg3))
  | 0, h => scratch_first m c ⟨0, h⟩ rfl
  | n + 1, h => by
    have hN : cfg0.N = 16 := N_0
    have hB : ¬(⟨n + 1, h⟩ : Fin cfg0.N).val % 16 = 0 := by dsimp only; omega
    have e := scratch_later m c ⟨n + 1, h⟩ hB
    have ih := scratch_eq c n (Nat.lt_of_succ_lt h)
    exact ⟨e.1.trans ih.1, e.2.trans ih.2⟩

/-! ## The two output blocks of every point -/

/-- At every point the hidden block is the first layer over the narrowed first weight matrix, and the output block
    the second layer over that hidden block and the narrowed second weight matrix. -/
theorem outs_eq (c : Dev nD) (t : Fin cfg0.N) :
    (outsAt0 m c t.val t.isLt).1 = k0_pay3 (F := Ideal) (iblk m c 0 t) (k0_pay1 (F := Ideal) (m ((c : Thread nD τ).loc main_arg1))) (iblk m c 2 t)
    ∧ (outsAt0 m c t.val t.isLt).2.1
        = k0_pay4 (F := Ideal) (k0_pay3 (F := Ideal) (iblk m c 0 t) (k0_pay1 (F := Ideal) (m ((c : Thread nD τ).loc main_arg1))) (iblk m c 2 t)) (k0_pay2 (F := Ideal) (m ((c : Thread nD τ).loc main_arg3))) (iblk m c 4 t) := by
  have hN : cfg0.N = 16 := N_0
  by_cases h0 : t.val % 16 = 0
  · rw [outsAt0_A m c t h0]
    dsimp only
    refine ⟨?_, ?_⟩
    · exact (Pieces.first_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)).trans
        (congrArg (fun w => k0_pay3 (F := Ideal) (iblk m c 0 t) (k0_pay1 (F := Ideal) w) (iblk m c 2 t)) (Blocks.whole1 m c t))
    · exact (Pieces.first_output (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t)).trans
        (congrArg₂ (fun w w' => k0_pay4 (F := Ideal) (k0_pay3 (F := Ideal) (iblk m c 0 t) (k0_pay1 (F := Ideal) w) (iblk m c 2 t)) (k0_pay2 (F := Ideal) w') (iblk m c 4 t))
          (Blocks.whole1 m c t) (Blocks.whole3 m c t))
  · have hs := scratch_eq m c (t.val - 1) (Nat.lt_of_le_of_lt (Nat.sub_le _ _) t.isLt)
    rw [outsAt0_B m c t h0]
    dsimp only
    refine ⟨?_, ?_⟩
    · exact (Pieces.later_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).2.2.1 (outsAt0 m c (t.val - 1) (Nat.lt_of_le_of_lt (Nat.sub_le _ _) t.isLt)).2.2.2).trans
        (congrArg (fun w => k0_pay3 (F := Ideal) (iblk m c 0 t) w (iblk m c 2 t)) hs.1)
    · exact (Pieces.later_output (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t)
          (outsAt0 m c (t.val - 1) (Nat.lt_of_le_of_lt (Nat.sub_le _ _) t.isLt)).2.2.1 (outsAt0 m c (t.val - 1) (Nat.lt_of_le_of_lt (Nat.sub_le _ _) t.isLt)).2.2.2).trans
        (congrArg₂ (fun w w' => k0_pay4 (F := Ideal) (k0_pay3 (F := Ideal) (iblk m c 0 t) w (iblk m c 2 t)) w' (iblk m c 4 t)) hs.1 hs.2)

/-! ## The payloads at an index, on the extended reals -/

/-- The narrowed first weight matrix is the matrix. -/
theorem narrow1 (w : Vec Ideal S1024x2048 .f32) : (k0_pay1 (F := Ideal) w : S1024x2048.Idx → EReal) = w := by
  unfold k0_pay1
  exact shapeCast_self _ _

/-- The narrowed second weight matrix is the matrix. -/
theorem narrow2 (w : Vec Ideal S2048x1024 .f32) : (k0_pay2 (F := Ideal) w : S2048x1024.Idx → EReal) = w := by
  unfold k0_pay2
  exact shapeCast_self _ _

/-- The hidden block's payload at an index: the rectified layer of the loaded blocks. -/
theorem hidden_pay (x0 : Vec Ideal S512x1024 .f32) (w : Vec Ideal S1024x2048 .bf16) (x2 : Vec Ideal S1x2048 .f32)
    (p : Fin 512) (j : Fin 2048) :
    k0_pay3 (F := Ideal) x0 w x2 (ix2 p j) = DenseLayers.rectified x0 w x2 p j := by
  unfold k0_pay3
  exact DenseLayers.rectified_apply _ rfl (truncf .bf16 x0 bitsLt_bf16_f32) w x2 _ p j

/-- The output block's payload at an index: the affine layer of the hidden block it read back. -/
theorem output_pay (hb : Vec Ideal S512x2048 .f32) (w : Vec Ideal S2048x1024 .bf16) (x4 : Vec Ideal S1x1024 .f32)
    (p : Fin 512) (q : Fin 1024) :
    k0_pay4 (F := Ideal) hb w x4 (ix2 p q) = DenseLayers.affine hb w x4 p q := by
  unfold k0_pay4
  refine (DenseLayers.affine_apply _ rfl
    (truncf .bf16 (shapeCast S512x2048 hb shapeCasts_S512x2048_S512x2048) bitsLt_bf16_f32) w x4 _ p q).trans ?_
  exact DenseLayers.affine_row _ hb w x4 p p q
    (fun k => congrFun (shapeCast_self hb shapeCasts_S512x2048_S512x2048) (ix2 p k))

/-- A hidden block whose operand blocks are a row block of `X`, a matrix equal to `W1` and `B1`, read at row `p`, is
    the hidden activations of `X` read at the row `r` that block row comes from. -/
theorem hidden_point (x0 : Vec Ideal S512x1024 .f32) (w : Vec Ideal S1024x2048 .bf16) (x2 : Vec Ideal S1x2048 .f32)
    (X : S8192x1024.Idx → EReal) (W1 : S1024x2048.Idx → EReal) (B1 : S1x2048.Idx → EReal)
    (p : Fin 512) (j : Fin 2048) (r : Fin 8192)
    (h0 : ∀ k : Fin 1024, x0 (ix2 p k) = X (ix2 r k)) (h1 : (w : S1024x2048.Idx → EReal) = W1) (h2 : x2 = B1) :
    k0_pay3 (F := Ideal) x0 w x2 (ix2 p j) = DenseLayers.hidden X W1 B1 (ix2 r j) := by
  subst h1 h2
  rw [hidden_pay, DenseLayers.hidden_apply]
  exact DenseLayers.rectified_row x0 X w x2 p r j h0

/-- The same for the output block and the network's output. -/
theorem output_point (x0 : Vec Ideal S512x1024 .f32) (w : Vec Ideal S1024x2048 .bf16) (x2 : Vec Ideal S1x2048 .f32)
    (w' : Vec Ideal S2048x1024 .bf16) (x4 : Vec Ideal S1x1024 .f32)
    (X : S8192x1024.Idx → EReal) (W1 : S1024x2048.Idx → EReal) (B1 : S1x2048.Idx → EReal)
    (W2 : S2048x1024.Idx → EReal) (B2 : S1x1024.Idx → EReal)
    (p : Fin 512) (q : Fin 1024) (r : Fin 8192)
    (h0 : ∀ k : Fin 1024, x0 (ix2 p k) = X (ix2 r k)) (h1 : (w : S1024x2048.Idx → EReal) = W1) (h2 : x2 = B1)
    (h3 : (w' : S2048x1024.Idx → EReal) = W2) (h4 : x4 = B2) :
    k0_pay4 (F := Ideal) (k0_pay3 (F := Ideal) x0 w x2) w' x4 (ix2 p q) = DenseLayers.output X W1 B1 W2 B2 (ix2 r q) := by
  subst h3 h4
  rw [output_pay, DenseLayers.output_apply]
  exact DenseLayers.affine_row (k0_pay3 (F := Ideal) x0 w x2) (DenseLayers.hidden X W1 B1) w' x4 p r q
    (fun j => hidden_point x0 w x2 X W1 B1 p j r h0 h1 h2)

/-! ## From blocks to the arrays -/

/-- What point `t` writes back to the first result array is block `t` of the hidden activations of the arguments. -/
theorem flushed5_eq (c : Dev nD) (t : Fin cfg0.N) :
    (dats m 0 c).flushed 5 t = ((cfg0.win 5).blk t).view.read (Elt Ideal)
      (DenseLayers.hidden (m ((c : Thread nD τ).loc main_arg0)) (m ((c : Thread nD τ).loc main_arg1)) (m ((c : Thread nD τ).loc main_arg2))) := by
  rw [Value.flushed5, (outs_eq m c t).1]
  have hN : t.val < 16 := lt_of_lt_of_eq t.isLt N_0
  refine funext fun (y : S512x2048.Idx) => ?_
  obtain ⟨p, j, rfl⟩ : ∃ (p : Fin 512) (j : Fin 2048), y = ix2 p j := ⟨y 0, y 1, eq_ix2 y⟩
  have hr : 512 * t.val + p.val < 8192 := by have := p.isLt; omega
  show k0_pay3 (F := Ideal) (iblk m c 0 t) (k0_pay1 (F := Ideal) (m ((c : Thread nD τ).loc main_arg1))) (iblk m c 2 t) (ix2 p j)
    = DenseLayers.hidden _ _ _ (((cfg0.win 5).blk t).view.emb (ix2 p j))
  rw [Blocks.emb5 t p j ⟨_, hr⟩ rfl]
  exact hidden_point _ _ _ _ _ _ p j ⟨_, hr⟩ (fun k => Blocks.x_rows m c t p k ⟨_, hr⟩ rfl) (narrow1 _) (Blocks.whole2 m c t)

/-- What point `t` writes back to the second result array is block `t` of the network's output on the arguments. -/
theorem flushed6_eq (c : Dev nD) (t : Fin cfg0.N) :
    (dats m 0 c).flushed 6 t = ((cfg0.win 6).blk t).view.read (Elt Ideal)
      (DenseLayers.output (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6, (outs_eq m c t).2]
  have hN : t.val < 16 := lt_of_lt_of_eq t.isLt N_0
  refine funext fun (y : S512x1024.Idx) => ?_
  obtain ⟨p, q, rfl⟩ : ∃ (p : Fin 512) (q : Fin 1024), y = ix2 p q := ⟨y 0, y 1, eq_ix2 y⟩
  have hr : 512 * t.val + p.val < 8192 := by have := p.isLt; omega
  show k0_pay4 (F := Ideal) (k0_pay3 (F := Ideal) (iblk m c 0 t) (k0_pay1 (F := Ideal) (m ((c : Thread nD τ).loc main_arg1))) (iblk m c 2 t)) (k0_pay2 (F := Ideal) (m ((c : Thread nD τ).loc main_arg3))) (iblk m c 4 t) (ix2 p q)
    = DenseLayers.output _ _ _ _ _ (((cfg0.win 6).blk t).view.emb (ix2 p q))
  rw [Blocks.emb6 t p q ⟨_, hr⟩ rfl]
  exact output_point _ _ _ _ _ _ _ _ _ _ p q ⟨_, hr⟩ (fun k => Blocks.x_rows m c t p k ⟨_, hr⟩ rfl) (narrow1 _) (Blocks.whole2 m c t)
    (narrow2 _) (Blocks.whole4 m c t)

/-- The first result array after the run: the hidden activations. -/
theorem final5 (c : Dev nD) : (dats m 0 c).arrAt 5 cfg0.N = DenseLayers.hidden (m ((c : Thread nD τ).loc main_arg0)) (m ((c : Thread nD τ).loc main_arg1)) (m ((c : Thread nD τ).loc main_arg2)) :=
  (dats m 0 c).arrAt_eq_of_cover 5 _ (fun t _ => flushed5_eq m c t) Blocks.cover5

/-- The second result array after the run: the network's output. -/
theorem final6 (c : Dev nD) : (dats m 0 c).arrAt 6 cfg0.N
    = DenseLayers.output (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6_eq m c t) Blocks.cover6

/-- The run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0) = DenseLayers.hidden (m ((c : Thread nD τ).loc main_arg0)) (m ((c : Thread nD τ).loc main_arg1)) (m ((c : Thread nD τ).loc main_arg2))
      ∧ r.2.mem ((c : Thread nD τ).loc main_v0_1) = DenseLayers.output (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Whole

end
-- ==== Proof.RefBlocks.lean ====
/-
  Where the blocks of the reference network sit in their arrays.

  The batch axis is cut into 16 blocks of 512 rows, one per grid point: at point `t` the input window of `x` and the
  two output windows hold rows `512 t … 512 t + 511` of their arrays, all columns; the weight and bias windows hold
  their whole arrays at every point. So an element at row `p` of a row block sits at row `512 t + p` of the array,
  a weight or bias block read at an index is the array read at that index, and every row `r` of an output array lies
  in the block of point `r / 512`.
-/
import proofs.«175138_g2000000166932902_pallasbulk_308_12_alg».proof.Proof.Gen.ReferenceIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.ReferenceIdeal.Blocks

open Cert.ReferenceIdeal Cert.ReferenceIdeal.Gen

variable {F : FTy → Type} [FloatOps F]
variable (m : (ℓ : Loc nD τ sig) → Buf (Elt F) ℓ)

/-- The printed block-index maps, decided over the 16 grid points: the row-blocked windows move along the rows with
    the point, every other block index is zero. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `p` of the block of `x` at point `t` is row `512 t + p` of `x`. -/
theorem x_rows (c : Dev nD) (t : Fin cfg0.N) (p : Fin 512) (k : Fin 1024) (r : Fin 8192) (hr : r.val = 512 * t.val + p.val) :
    (iblk m c 0 t : Vec F S512x1024 .f32) (ix2 p k) = m ((c : Thread nD τ).loc main_arg0) (ix2 r k) := by
  obtain ⟨⟨e0, e1⟩, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- The block of the first weight matrix at any point is the whole array. -/
theorem whole1 (c : Dev nD) (t : Fin cfg0.N) :
    (iblk m c 1 t : Vec F S1024x2048 .f32) = m ((c : Thread nD τ).loc main_arg1) := by
  obtain ⟨-, ⟨e0, e1⟩, -⟩ := idx_facts t
  funext j
  unfold iblk
  rw [View.read_apply]
  show V m c main_arg1 _ = m (c.tc.loc main_arg1) _
  unfold V
  congr 1
  funext a
  apply Fin.ext
  match a with
  | ⟨0, _⟩ => show win0_1.index t (0 : Fin 2) * 1024 + 1 * (j 0).val = (j 0).val; omega
  | ⟨1, _⟩ => show win0_1.index t (1 : Fin 2) * 2048 + 1 * (j 1).val = (j 1).val; omega

/-- The block of the first bias row at any point is the whole array. -/
theorem whole2 (c : Dev nD) (t : Fin cfg0.N) :
    (iblk m c 2 t : Vec F S1x2048 .f32) = m ((c : Thread nD τ).loc main_arg2) := by
  obtain ⟨-, -, ⟨e0, e1⟩, -⟩ := idx_facts t
  funext j
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega

/-- The block of the second weight matrix at any point is the whole array. -/
theorem whole3 (c : Dev nD) (t : Fin cfg0.N) :
    (iblk m c 3 t : Vec F S2048x1024 .f32) = m ((c : Thread nD τ).loc main_arg3) := by
  obtain ⟨-, -, -, ⟨e0, e1⟩, -⟩ := idx_facts t
  funext j
  unfold iblk
  rw [View.read_apply]
  show V m c main_arg3 _ = m (c.tc.loc main_arg3) _
  unfold V
  congr 1
  funext a
  apply Fin.ext
  match a with
  | ⟨0, _⟩ => show win0_3.index t (0 : Fin 2) * 2048 + 1 * (j 0).val = (j 0).val; omega
  | ⟨1, _⟩ => show win0_3.index t (1 : Fin 2) * 1024 + 1 * (j 1).val = (j 1).val; omega

/-- The block of the second bias row at any point is the whole array. -/
theorem whole4 (c : Dev nD) (t : Fin cfg0.N) :
    (iblk m c 4 t : Vec F S1x1024 .f32) = m ((c : Thread nD τ).loc main_arg4) := by
  obtain ⟨-, -, -, -, ⟨e0, e1⟩, -⟩ := idx_facts t
  funext j
  unfold iblk
  rw [View.read_apply]
  show V m c main_arg4 _ = m (c.tc.loc main_arg4) _
  unfold V
  congr 1
  funext a
  apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- An element at row `p` of the hidden block of point `t` sits at row `512 t + p` of the hidden array. -/
theorem emb5 (t : Fin cfg0.N) (p : Fin 512) (q : Fin 2048) (r : Fin 8192) (hr : r.val = 512 * t.val + p.val) :
    ((cfg0.win 5).blk t).view.emb (ix2 p q) = (ix2 r q : S8192x2048.Idx) := by
  obtain ⟨-, -, -, -, -, ⟨e0, e1⟩, -⟩ := idx_facts t
  funext a
  apply Fin.ext
  match a with
  | ⟨0, _⟩ => show win0_5.index t (0 : Fin 2) * 512 + 1 * p.val = r.val; omega
  | ⟨1, _⟩ => show win0_5.index t (1 : Fin 2) * 2048 + 1 * q.val = q.val; omega

/-- An index of the hidden array is in point `t`'s block iff each coordinate is in the block's range on its axis. -/
theorem mem_blk5 (t : Fin cfg0.N) (i : S8192x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v0_0).slice (win0_5.rect t)).set ↔ _
  rw [View.set_slice_whole, Rect.mem_set_unit]
  exact Iff.rfl

/-- Every index of the hidden array is in the block of the point its row falls in, and that point writes back. -/
theorem cover5 (i : S8192x2048.Idx) :
    ∃ t : Fin cfg0.N, (cfg0.win 5).flush t = true ∧ i ∈ ((cfg0.win 5).blk t).view.set := by
  have hN : cfg0.N = 16 := N_0
  have hi0 : (i 0).val < 8192 := (i 0).isLt
  have hi1 : (i 1).val < 2048 := (i 1).isLt
  obtain ⟨t, ht⟩ : ∃ t : Fin cfg0.N, t.val = (i 0).val / 512 := ⟨⟨(i 0).val / 512, by omega⟩, rfl⟩
  obtain ⟨-, -, -, -, -, ⟨e0, e1⟩, -⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- An element at row `p` of the output block of point `t` sits at row `512 t + p` of the output array. -/
theorem emb6 (t : Fin cfg0.N) (p : Fin 512) (q : Fin 1024) (r : Fin 8192) (hr : r.val = 512 * t.val + p.val) :
    ((cfg0.win 6).blk t).view.emb (ix2 p q) = (ix2 r q : S8192x1024.Idx) := by
  obtain ⟨-, -, -, -, -, -, ⟨e0, e1⟩⟩ := idx_facts t
  funext a
  apply Fin.ext
  match a with
  | ⟨0, _⟩ => show win0_6.index t (0 : Fin 2) * 512 + 1 * p.val = r.val; omega
  | ⟨1, _⟩ => show win0_6.index t (1 : Fin 2) * 1024 + 1 * q.val = q.val; omega

/-- An index of the output array is in point `t`'s block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_1).slice (win0_6.rect t)).set ↔ _
  rw [View.set_slice_whole, Rect.mem_set_unit]
  exact Iff.rfl

/-- Every index of the output array is in the block of the point its row falls in, and that point writes back. -/
theorem cover6 (i : S8192x1024.Idx) :
    ∃ t : Fin cfg0.N, (cfg0.win 6).flush t = true ∧ i ∈ ((cfg0.win 6).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨-, -, -, -, -, -, ⟨e0, e1⟩⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

end Cert.ReferenceIdeal.Blocks

end
-- ==== Proof.RefValue.lean ====
/-
  What the reference network leaves in its two result arrays, at the ideal values.

  The reference runs the two dense layers on 16 row blocks of 512 rows. At a grid point its body multiplies the
  block of `x` by the whole first weight matrix, adds the first bias row and rectifies (the hidden block), then
  multiplies that hidden block by the whole second weight matrix and adds the second bias row (the output block).
  A block's row `p` at point `t` is row `512 t + p` of the array, and an entry of either layer depends on its left
  operand through one row only, so the hidden block is rows `512 t …` of the hidden activations of all of `x`, and the
  output block is the same rows of the network's output. The 16 blocks tile each result array; hence after the run
  the first result array is `DenseLayers.hidden` and the second `DenseLayers.output` of the five argument arrays.
-/
import proofs.«175138_g2000000166932902_pallasbulk_308_12_alg».proof.Proof.Gen.ReferenceIdeal.Value
import proofs.«175138_g2000000166932902_pallasbulk_308_12_alg».proof.Proof.RefBlocks
import proofs.«175138_g2000000166932902_pallasbulk_308_12_alg».proof.Proof.LibDenseLayers

noncomputable section

open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The hidden block's payload at an index: the rectified layer of the loaded blocks. -/
theorem hidden_pay (x0 : Vec Ideal S512x1024 .f32) (x1 : Vec Ideal S1024x2048 .f32) (x3 : Vec Ideal S1x2048 .f32)
    (p : Fin 512) (j : Fin 2048) :
    k0_pay1 x0 x1 x3 (ix2 p j) = DenseLayers.rectified x0 x1 x3 p j := by
  unfold k0_pay1
  exact DenseLayers.rectified_apply _ rfl x0 x1 x3 _ p j

/-- The output block's payload at an index: the affine layer of the hidden block. -/
theorem output_pay (x0 : Vec Ideal S512x1024 .f32) (x1 : Vec Ideal S1024x2048 .f32) (x3 : Vec Ideal S1x2048 .f32)
    (x9 : Vec Ideal S2048x1024 .f32) (x11 : Vec Ideal S1x1024 .f32) (p : Fin 512) (q : Fin 1024) :
    k0_pay2 x0 x1 x3 x9 x11 (ix2 p q) = DenseLayers.affine (k0_pay1 x0 x1 x3) x9 x11 p q := by
  unfold k0_pay2
  exact DenseLayers.affine_apply _ rfl (k0_pay1 x0 x1 x3) x9 x11 _ p q

/-- A hidden block whose operand blocks are a row block of `X` and the whole `W1`, `B1`, read at row `p`, is the hidden
    activations of `X` read at the row `r` that block row comes from. -/
theorem hidden_point (x0 : Vec Ideal S512x1024 .f32) (x1 : Vec Ideal S1024x2048 .f32) (x3 : Vec Ideal S1x2048 .f32)
    (X : S8192x1024.Idx → EReal) (W1 : S1024x2048.Idx → EReal) (B1 : S1x2048.Idx → EReal)
    (p : Fin 512) (j : Fin 2048) (r : Fin 8192)
    (h0 : ∀ k : Fin 1024, x0 (ix2 p k) = X (ix2 r k)) (h1 : x1 = W1) (h3 : x3 = B1) :
    k0_pay1 x0 x1 x3 (ix2 p j) = DenseLayers.hidden X W1 B1 (ix2 r j) := by
  subst h1 h3
  rw [hidden_pay, DenseLayers.hidden_apply]
  exact DenseLayers.rectified_row x0 X x1 x3 p r j h0

/-- The same for the output block and the network's output. -/
theorem output_point (x0 : Vec Ideal S512x1024 .f32) (x1 : Vec Ideal S1024x2048 .f32) (x3 : Vec Ideal S1x2048 .f32)
    (x9 : Vec Ideal S2048x1024 .f32) (x11 : Vec Ideal S1x1024 .f32)
    (X : S8192x1024.Idx → EReal) (W1 : S1024x2048.Idx → EReal) (B1 : S1x2048.Idx → EReal)
    (W2 : S2048x1024.Idx → EReal) (B2 : S1x1024.Idx → EReal)
    (p : Fin 512) (q : Fin 1024) (r : Fin 8192)
    (h0 : ∀ k : Fin 1024, x0 (ix2 p k) = X (ix2 r k)) (h1 : x1 = W1) (h3 : x3 = B1) (h9 : x9 = W2) (h11 : x11 = B2) :
    k0_pay2 x0 x1 x3 x9 x11 (ix2 p q) = DenseLayers.output X W1 B1 W2 B2 (ix2 r q) := by
  subst h9 h11
  rw [output_pay, DenseLayers.output_apply]
  exact DenseLayers.affine_row (k0_pay1 x0 x1 x3) (DenseLayers.hidden X W1 B1) x9 x11 p r q
    (fun j => hidden_point x0 x1 x3 X W1 B1 p j r h0 h1 h3)

/-- What point `t` writes back to the first result array is block `t` of the hidden activations of the arguments. -/
theorem flushed5_eq (c : Dev nD) (t : Fin cfg0.N) :
    (dats m 0 c).flushed 5 t = ((cfg0.win 5).blk t).view.read (Elt Ideal)
      (DenseLayers.hidden (m ((c : Thread nD τ).loc main_arg0)) (m ((c : Thread nD τ).loc main_arg1)) (m ((c : Thread nD τ).loc main_arg2))) := by
  rw [Value.flushed5]
  unfold out0_5
  rw [View.canon_unit_zero hz]
  simp only [View.ld_unit_zero (S := S512x1024) hz, View.ld_unit_zero (S := S1024x2048) hz, View.ld_unit_zero (S := S1x2048) hz]
  have hN : t.val < 16 := lt_of_lt_of_eq t.isLt N_0
  refine funext fun (y : S512x2048.Idx) => ?_
  obtain ⟨p, j, rfl⟩ : ∃ (p : Fin 512) (j : Fin 2048), y = ix2 p j := ⟨y 0, y 1, eq_ix2 y⟩
  have hr : 512 * t.val + p.val < 8192 := by have := p.isLt; omega
  show k0_pay1 (iblk m c 0 t) (iblk m c 1 t) (iblk m c 2 t) (ix2 p j) = DenseLayers.hidden _ _ _ (((cfg0.win 5).blk t).view.emb (ix2 p j))
  rw [Blocks.emb5 t p j ⟨_, hr⟩ rfl]
  exact hidden_point _ _ _ _ _ _ p j ⟨_, hr⟩ (fun k => Blocks.x_rows m c t p k ⟨_, hr⟩ rfl) (Blocks.whole1 m c t) (Blocks.whole2 m c t)

/-- What point `t` writes back to the second result array is block `t` of the network's output on the arguments. -/
theorem flushed6_eq (c : Dev nD) (t : Fin cfg0.N) :
    (dats m 0 c).flushed 6 t = ((cfg0.win 6).blk t).view.read (Elt Ideal)
      (DenseLayers.output (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed6]
  unfold out0_6
  rw [View.canon_unit_zero hz]
  simp only [View.ld_unit_zero (S := S512x1024) hz, View.ld_unit_zero (S := S1024x2048) hz, View.ld_unit_zero (S := S1x2048) hz,
    View.ld_unit_zero (S := S2048x1024) hz, View.ld_unit_zero (S := S1x1024) hz]
  have hN : t.val < 16 := lt_of_lt_of_eq t.isLt N_0
  refine funext fun (y : S512x1024.Idx) => ?_
  obtain ⟨p, q, rfl⟩ : ∃ (p : Fin 512) (q : Fin 1024), y = ix2 p q := ⟨y 0, y 1, eq_ix2 y⟩
  have hr : 512 * t.val + p.val < 8192 := by have := p.isLt; omega
  show k0_pay2 (iblk m c 0 t) (iblk m c 1 t) (iblk m c 2 t) (iblk m c 3 t) (iblk m c 4 t) (ix2 p q) = DenseLayers.output _ _ _ _ _ (((cfg0.win 6).blk t).view.emb (ix2 p q))
  rw [Blocks.emb6 t p q ⟨_, hr⟩ rfl]
  exact output_point _ _ _ _ _ _ _ _ _ _ p q ⟨_, hr⟩ (fun k => Blocks.x_rows m c t p k ⟨_, hr⟩ rfl) (Blocks.whole1 m c t) (Blocks.whole2 m c t)
    (Blocks.whole3 m c t) (Blocks.whole4 m c t)

/-- The first result array after the run: the hidden activations. -/
theorem final5 (c : Dev nD) : (dats m 0 c).arrAt 5 cfg0.N
    = DenseLayers.hidden (m ((c : Thread nD τ).loc main_arg0)) (m ((c : Thread nD τ).loc main_arg1)) (m ((c : Thread nD τ).loc main_arg2)) :=
  (dats m 0 c).arrAt_eq_of_cover 5 _ (fun t _ => flushed5_eq m c t) Blocks.cover5

/-- The second result array after the run: the network's output. -/
theorem final6 (c : Dev nD) : (dats m 0 c).arrAt 6 cfg0.N
    = DenseLayers.output (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 6 _ (fun t _ => flushed6_eq m c t) Blocks.cover6

/-- The run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v0_0)
        = DenseLayers.hidden (m ((c : Thread nD τ).loc main_arg0)) (m ((c : Thread nD τ).loc main_arg1)) (m ((c : Thread nD τ).loc main_arg2))
      ∧ r.2.mem ((c : Thread nD τ).loc main_v0_1)
        = DenseLayers.output (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.ReferenceIdeal.Whole

end
-- ==== Proof.lean ====
/-
  The fused two-layer network against its reference, on the extended reals.

  Both programs compute, for `x` (8192 x 1024), weights `w1` (1024 x 2048), `w2` (2048 x 1024) and bias rows `b1`, `b2`,

      hidden (r, j) = max (∑ k, x (r, k) * w1 (k, j) + b1 (0, j)) 0
      output (r, q) = ∑ j, hidden (r, j) * w2 (j, q) + b2 (0, q)

  in 16 blocks of 512 rows. The reference reads both weight matrices from their windows at every grid point. The
  kernel copies them once, at the first grid point, into two scratch buffers in a 16-bit format and reads the scratch
  from then on; it also stores the hidden block, reads it back and narrows it before the second product. On the
  extended reals a change of float format is the identity, so the kernel's scratch buffers hold the weight matrices
  after every point (induction on the point) and each of its blocks is the same rectified and affine layer of the
  same rows as the reference's. The blocks tile the result arrays, so each program ends with `DenseLayers.hidden` in
  its first result array and `DenseLayers.output` in its second (Proof/KerValue.lean, Proof/RefValue.lean), functions
  of the argument arrays alone; the two runs start from arguments that agree, so the results are equal. No law of
  arithmetic is needed (both sides are literally the same sums), and the finiteness of the inputs is not used.

  The three frames are the generated ones; the ideal pass rewrote nothing, so `preserves` is `True`.
-/
import proofs.«175138_g2000000166932902_pallasbulk_308_12_alg».proof.Defs
import proofs.«175138_g2000000166932902_pallasbulk_308_12_alg».proof.Proof.Gen.Kernel
import proofs.«175138_g2000000166932902_pallasbulk_308_12_alg».proof.Proof.Gen.Kernel.Frame
import proofs.«175138_g2000000166932902_pallasbulk_308_12_alg».proof.Proof.Gen.KernelIdeal
import proofs.«175138_g2000000166932902_pallasbulk_308_12_alg».proof.Proof.Gen.KernelIdeal.Frame
import proofs.«175138_g2000000166932902_pallasbulk_308_12_alg».proof.Proof.Gen.ReferenceIdeal
import proofs.«175138_g2000000166932902_pallasbulk_308_12_alg».proof.Proof.Gen.ReferenceIdeal.Frame
import proofs.«175138_g2000000166932902_pallasbulk_308_12_alg».proof.Proof.Gen.Pre_finite_inputs
import proofs.«175138_g2000000166932902_pallasbulk_308_12_alg».proof.Proof.KerValue
import proofs.«175138_g2000000166932902_pallasbulk_308_12_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- Both runs end with the hidden activations and the network's output of their argument arrays, and the argument
    arrays agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun r h c => ?_) (Cert.ReferenceIdeal.Whole.run m' ρ')
  obtain ⟨h5, h6, hk⟩ := h c
  obtain ⟨a0, a1, a2, a3, a4⟩ := hagree c
  refine ⟨h5.trans ?_, h6.trans ?_, hk⟩
  · rw [a0, a1, a2]
  · rw [a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
